-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v33_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v33_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S2x128 : Shape := ⟨2, ![2, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S2x128 : S_.BroadcastsInDim S2x128 (![] : Fin 0 → Fin S2x128.rank)
  reducesTo_S2x128_S_d0_1 : S2x128.ReducesTo [0, 1] S_

variable [Facts]

def fn {F : FTy → Type} [FloatOps F] (main_arg0 : FVec F S100000x128 .f32) (main_arg1 : FVec F S50000x128 .f32) (main_arg2 : FVec F S2x128 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S2x128 .f32 := Host.absf main_arg2
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  main_v13
-- ==== Kernel.lean ====
abbrev S100000x128 : Shape := ⟨2, ![100000, 128]⟩
abbrev S50000x128 : Shape := ⟨2, ![50000, 128]⟩
abbrev S2x128 : Shape := ⟨2, ![2, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩
abbrev S50000 : Shape := ⟨1, ![50000]⟩
abbrev S50000x1 : Shape := ⟨2, ![50000, 1]⟩
abbrev S128 : Shape := ⟨1, ![128]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 63
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x128, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S100000x1, .f32⟩
  | .hbm, ⟨12, _⟩ => ⟨S100000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S50000x128, .f32⟩
  | .hbm, ⟨24, _⟩ => ⟨S1600000x1, .i32⟩
  | .hbm, ⟨25, _⟩ => ⟨S50000x128, .f32⟩
  | .hbm, ⟨26, _⟩ => ⟨S_, .f32⟩
  | .hbm, ⟨27, _⟩ => ⟨S50000, .f32⟩
  | .hbm, ⟨28, _⟩ => ⟨S1600000x1, .i32⟩
  | .hbm, ⟨29, _⟩ => ⟨S50000, .f32⟩
  | .hbm, ⟨30, _⟩ => ⟨S50000x1, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S1x128, .f32⟩
  | .hbm, ⟨37, _⟩ => ⟨S2x128, .f32⟩
  | .hbm, ⟨38, _⟩ => ⟨S2x128, .f32⟩
  | .hbm, ⟨39, _⟩ => ⟨S2x128, .f32⟩
  | .hbm, ⟨40, _⟩ => ⟨S_, .f32⟩
  | .hbm, ⟨41, _⟩ => ⟨S128, .f32⟩
  | .hbm, ⟨42, _⟩ => ⟨S1x128, .f32⟩
  | .hbm, ⟨43, _⟩ => ⟨S2x128, .f32⟩
  | .hbm, ⟨44, _⟩ => ⟨S2x128, .f32⟩
  | .hbm, ⟨45, _⟩ => ⟨S1x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S1x128, .f32⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33_0 : Ref sig .tc := ⟨.hbm, 47, rfl⟩
abbrev main_v33_1 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  broadcasts_S4000x1_S4000x128 : S4000x1.Broadcasts S4000x128
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  reducesTo_S2x128_S128_d0 : S2x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S2x128_0_1 : S1x128.BroadcastsInDim S2x128 (![0, 1] : Fin 2 → Fin S2x128.rank)
  slices_S2x128_S1x128_0_0 : S2x128.Slices ![0, 0] S1x128
  slices_S2x128_S1x128_1_0 : S2x128.Slices ![1, 0] S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  broadcasts_S2000x1_S2000x128 : S2000x1.Broadcasts S2000x128
  bcast_S_S100000x128 : S_.BroadcastsInDim S100000x128 (![] : Fin 0 → Fin S100000x128.rank)
  shapeCasts_S4000x128_S4000x128 : S4000x128.ShapeCasts S4000x128
  broadcasts_S1x128_S4000x128 : S1x128.Broadcasts S4000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S100000x128.size a
  hwx2_4 : ∀ i : grid2.Coords, EltTy.bits .f32 = 32 ∨ (Rect.block (s := S100000x128) S4000x128.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v33_1) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S2x128 : Shape := ⟨2, ![2, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S128 : Shape := ⟨1, ![128]⟩
abbrev S1x128 : Shape := ⟨2, ![1, 128]⟩
abbrev S50000 : Shape := ⟨1, ![50000]⟩
abbrev S50000x1 : Shape := ⟨2, ![50000, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x128, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .i1⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x128, .f32⟩
  | .hbm, ⟨23, _⟩ => ⟨S100000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S50000x128, .f32⟩
  | .hbm, ⟨35, _⟩ => ⟨S1600000x1, .i32⟩
  | .hbm, ⟨36, _⟩ => ⟨S50000x128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S1x128, .f32⟩
  | .hbm, ⟨43, _⟩ => ⟨S2x128, .f32⟩
  | .hbm, ⟨44, _⟩ => ⟨S2x128, .f32⟩
  | .hbm, ⟨45, _⟩ => ⟨S2x128, .f32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S2x128, .f32⟩
  | .hbm, ⟨50, _⟩ => ⟨S2x128, .f32⟩
  | .hbm, ⟨51, _⟩ => ⟨S1x128, .f32⟩
  | .hbm, ⟨52, _⟩ => ⟨S128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000, .f32⟩
  | .hbm, ⟨64, _⟩ => ⟨S1600000x1, .i32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .i1⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S_, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x128, .f32⟩
  | .hbm, ⟨88, _⟩ => ⟨S_, .f32⟩
  | .hbm, ⟨89, _⟩ => ⟨S100000x128, .f32⟩
  | .hbm, ⟨90, _⟩ => ⟨S1600000x1, .i32⟩
  | .hbm, ⟨91, _⟩ => ⟨S100000x128, .f32⟩
  | .hbm, ⟨92, _⟩ => ⟨S1x128, .f32⟩
  | .hbm, ⟨93, _⟩ => ⟨S128, .f32⟩
  | .hbm, ⟨94, _⟩ => ⟨S1x128, .f32⟩
  | .hbm, ⟨95, _⟩ => ⟨S100000x128, .f32⟩
  | .hbm, ⟨96, _⟩ => ⟨S100000x128, .f32⟩
  | .hbm, ⟨97, _⟩ => ⟨S1x128, .f32⟩
  | .hbm, ⟨98, _⟩ => ⟨S128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_call1_v0 : Ref sig .tc := ⟨.hbm, 73, rfl⟩
abbrev main_call1_v1 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_13 : Ref sig .tc := ⟨.hbm, 79, rfl⟩
abbrev main_v55 : Ref sig .tc := ⟨.hbm, 80, rfl⟩
abbrev main_v56 : Ref sig .tc := ⟨.hbm, 81, rfl⟩
abbrev main_c_14 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S50000x128 : S_.BroadcastsInDim S50000x128 (![] : Fin 0 → Fin S50000x128.rank)
  reducesTo_S2x128_S128_d0 : S2x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S2x128_0_1 : S1x128.BroadcastsInDim S2x128 (![0, 1] : Fin 2 → Fin S2x128.rank)
  slices_S2x128_S1x128_0_0 : S2x128.Slices ![0, 0] S1x128
  shapeCasts_S1x128_S128 : S1x128.ShapeCasts S128
  bcast_S1x128_S50000x128_0_1 : S1x128.BroadcastsInDim S50000x128 (![0, 1] : Fin 2 → Fin S50000x128.rank)
  slices_S2x128_S1x128_1_0 : S2x128.Slices ![1, 0] S1x128
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernRun.lean ====
/-
  The idealized kernel program's run with its two result arrays named.

  The program is three pipelined kernel launches among stretches of host operations. Its run is a chain of buffer
  valuations, one per boundary between stretches and launches: `W0` the launch memory, `W1` after the first host stretch,
  `W2` after the first launch (its output array at what the launch's write-backs leave, everything else as before), and so on to
  `W6` after the third launch. Every weakly fair execution ends with every unscoped buffer at `W6`; the frame statement keeps
  of this only that the five argument arrays are unchanged. Here the same run is stated keeping also the two result arrays:
  they end at `W6` read at their buffers. What `W6` holds there is the business of the other modules.
-/
import proofs.«167250_j22393959481939_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the two results end at the last boundary's contents
    read at their buffers, and the arguments end as launched. -/
theorem run : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_v33_0) = W6 m ρ c (Proc.devRef .tc main_v33_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       h c _ (mem_uc main_v33_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Named

end
-- ==== Proof.Spec.lean ====
/-
  The mathematics shared by the two programs, stated once over plain index functions on the extended reals.

  Both programs compute, for a vertex/hyperedge incidence list, two rounds of "gather rows, sum them into
  segments", each round followed by a row scaling or a two-term mix:
  * a row of a feature table is scaled by the reciprocal of its row's degree, the reciprocal read as zero where the
    degree is not positive (`scaleRows`, over `recip`);
  * two tables are mixed lane by lane with two weight rows, `a · R + b · Y` (`mixRows`).
  Nothing here needs an algebraic law: each side performs these same operations in the same order, so the bridge is
  only about WHERE each element is read. The layout facts that the bridge needs and the library does not state are
  here as well: a column `[n, 1]` spread over the lanes, and a vector `[n]` recast as that column.
-/
import Idealize.ShloMosaic.PureOps.Ideal
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx

/-- The reciprocal of a degree `d`, zero where `d` is not positive: `where(d > 0, 1 / d, 0)` on the extended reals. -/
def recip (d : EReal) : EReal :=
  Scalar.select (Ideal.cmp .ogt d (Ideal.ofBits .f32 0x00000000#32))
    (Ideal.div (Ideal.ofBits .f32 0x3F800000#32) d) (Ideal.ofBits .f32 0x00000000#32)

/-- Row `r` of the table `X` times the reciprocal of the degree in row `r` of the column `D`. -/
def scaleRows {n : Nat} (X : (⟨2, ![n, 128]⟩ : Shape).Idx → EReal) (D : (⟨2, ![n, 1]⟩ : Shape).Idx → EReal) :
    (⟨2, ![n, 128]⟩ : Shape).Idx → EReal :=
  fun i => X i * recip (D (ix2 (i 0) (0 : Fin 1)))

/-- Lane by lane, `a · R + b · Y` with the two weight rows `a`, `b`. -/
def mixRows {n : Nat} (a b : (⟨2, ![1, 128]⟩ : Shape).Idx → EReal) (R Y : (⟨2, ![n, 128]⟩ : Shape).Idx → EReal) :
    (⟨2, ![n, 128]⟩ : Shape).Idx → EReal :=
  fun i => a (ix2 (0 : Fin 1) (i 1)) * R i + b (ix2 (0 : Fin 1) (i 1)) * Y i

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` recast as the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge

end
-- ==== Proof.Pay.lean ====
/-
  The three kernel bodies' arithmetic, each as one of the shared functions of the blocks it loads.

  Every body stores pointwise expressions of its loaded blocks in which a `[rows, 1]` column or a `[1, 128]` row is first
  spread over the whole block: at the element `(p, q)` the spread column is read at `(p, 0)` and the spread row at
  `(0, q)`, and a shape cast to the same shape is the identity. Read there, the first body's stored block is
  `scaleRows` of its table block and its degree column; the second body's two stored blocks are `mixRows` of the two weight rows and the
  two table blocks, and that mix scaled by the degree column; the third body's is `mixRows` again.
-/
import proofs.«167250_j22393959481939_2_alg».proof.Proof.Gen.KernelIdeal.Skeleton
import proofs.«167250_j22393959481939_2_alg».proof.Proof.Spec

noncomputable section

namespace Cert.Bridge

open Idealize.ShloMosaic Idealize.ShloMosaic.ValueIdx Cert.KernelIdeal Cert.KernelIdeal.Gen

/-- First body: the table block times the spread reciprocal-degree column. -/
theorem pay_scale (d : Vec Ideal S4000x1 .f32) (x : Vec Ideal S4000x128 .f32) :
    k0_pay1 d x = scaleRows x d := by
  funext j
  obtain ⟨p, q, rfl⟩ : ∃ (p : Fin 4000) (q : Fin 128), j = ix2 p q := ⟨j 0, j 1, eq_ix2 j⟩
  unfold k0_pay1 scaleRows
  show x (ix2 p q) * broadcastTo S4000x128 _ broadcasts_S4000x1_S4000x128 (ix2 p q) = _
  rw [broadcastTo_a1_ab_apply, shapeCast_self]
  rfl

/-- Second body, first store: the two weight rows spread over the rows, times the two table blocks, added. -/
theorem pay_mix_edge (a : Vec Ideal S1x128 .f32) (r : Vec Ideal S2000x128 .f32) (b : Vec Ideal S1x128 .f32)
    (y : Vec Ideal S2000x128 .f32) : k1_pay1 a r b y = mixRows a b r y := by
  funext j
  obtain ⟨p, q, rfl⟩ : ∃ (p : Fin 2000) (q : Fin 128), j = ix2 p q := ⟨j 0, j 1, eq_ix2 j⟩
  unfold k1_pay1 mixRows
  show broadcastTo S2000x128 _ broadcasts_S1x128_S2000x128 (ix2 p q) * shapeCast S2000x128 r _ (ix2 p q)
      + broadcastTo S2000x128 _ broadcasts_S1x128_S2000x128 (ix2 p q) * y (ix2 p q) = _
  rw [broadcastTo_1b_ab_apply, broadcastTo_1b_ab_apply, shapeCast_self, shapeCast_self, shapeCast_self]

/-- Second body, second store: the first store's value times the spread reciprocal-degree column. -/
theorem pay_mix_edge_scaled (d : Vec Ideal S2000x1 .f32) (a : Vec Ideal S1x128 .f32) (r : Vec Ideal S2000x128 .f32)
    (b : Vec Ideal S1x128 .f32) (y : Vec Ideal S2000x128 .f32) :
    k1_pay2 d a r b y = scaleRows (mixRows a b r y) d := by
  funext j
  obtain ⟨p, q, rfl⟩ : ∃ (p : Fin 2000) (q : Fin 128), j = ix2 p q := ⟨j 0, j 1, eq_ix2 j⟩
  unfold k1_pay2 scaleRows
  show k1_pay1 a r b y (ix2 p q) * broadcastTo S2000x128 _ broadcasts_S2000x1_S2000x128 (ix2 p q) = _
  rw [broadcastTo_a1_ab_apply, shapeCast_self, pay_mix_edge]
  rfl

/-- Third body: the mix of the second body's first store, on the vertex tables. -/
theorem pay_mix_node (a : Vec Ideal S1x128 .f32) (r : Vec Ideal S4000x128 .f32) (b : Vec Ideal S1x128 .f32)
    (x : Vec Ideal S4000x128 .f32) : k2_pay1 a r b x = mixRows a b r x := by
  funext j
  obtain ⟨p, q, rfl⟩ : ∃ (p : Fin 4000) (q : Fin 128), j = ix2 p q := ⟨j 0, j 1, eq_ix2 j⟩
  unfold k2_pay1 mixRows
  show broadcastTo S4000x128 _ broadcasts_S1x128_S4000x128 (ix2 p q) * shapeCast S4000x128 r _ (ix2 p q)
      + broadcastTo S4000x128 _ broadcasts_S1x128_S4000x128 (ix2 p q) * x (ix2 p q) = _
  rw [broadcastTo_1b_ab_apply, broadcastTo_1b_ab_apply, shapeCast_self, shapeCast_self, shapeCast_self]

end Cert.Bridge

end
-- ==== Proof.Region0.lean ====
/-
  The first launch (the row scaling), read as one whole-array function.

  The grid has 25 points; at point `t` the launch stages rows `4000 t … 4000 t + 3999` of the feature table and of the
  degree column and writes back the same rows of its output. What the body leaves for rows `4000 t + p` is `scaleRows` of the two
  staged blocks, and a block's element `(p, q)` sits in its array at `(4000 t + p, q)` (the column's at `(4000 t + p, 0)`): so the
  block written back at `t` is block `t` of `scaleRows` of the two whole arrays, and the 25 blocks cover the output.
  Stated at a parameter `V`, the buffer contents the launch is entered with.
-/
import proofs.«167250_j22393959481939_2_alg».proof.Proof.Gen.KernelIdeal.Frame
import proofs.«167250_j22393959481939_2_alg».proof.Proof.Pay
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Scale

open Cert.KernelIdeal Cert.KernelIdeal.Gen Cert.Bridge Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window of this launch is at block row `t`, block column 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the scaled table. -/
theorem flushed_eq (c : Dev nD) (t : Fin cfg0.N) :
    (dat0 V c).flushed 2 t
      = ((cfg0.win 2).blk t).view.read (Elt Ideal) (scaleRows (V c main_arg0) (V c main_v4)) := by
  show (cfg0.win 2).cut (grid0.coords t) ((dat0 V c).after 2 t) = _
  rw [after0_2]
  unfold out0_2
  rw [View.canon_unit_zero hz]
  simp only [View.ld_unit_zero (S := S4000x1) hz, View.ld_unit_zero (S := S4000x128) hz]
  rw [pay_scale]
  obtain ⟨e0, e1, e2, e3, e4, e5⟩ := block_index t
  funext j
  have h0 : ((cfg0.win 0).blk t).view.emb j = ((cfg0.win 2).blk t).view.emb j := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb (ix2 (j 0) (0 : Fin 1)) = ix2 ((((cfg0.win 2).blk t).view.emb j) 0) (0 : Fin 1) := by
    funext a; apply Fin.ext
    match a with
    | ⟨0, _⟩ => show win0_1.index t (0 : Fin 2) * 4000 + 1 * (j 0).val = win0_2.index t (0 : Fin 2) * 4000 + 1 * (j 0).val; omega
    | ⟨1, _⟩ => show win0_1.index t (1 : Fin 2) * 1 + 1 * 0 = 0; omega
  have key : ∀ (X : S100000x128.Idx → EReal) (D : S100000x1.Idx → EReal),
      X (((cfg0.win 0).blk t).view.emb j) * recip (D (((cfg0.win 1).blk t).view.emb (ix2 (j 0) (0 : Fin 1))))
        = X (((cfg0.win 2).blk t).view.emb j) * recip (D (ix2 ((((cfg0.win 2).blk t).view.emb j) 0) (0 : Fin 1))) := by
    intro X D; rw [h0, h1]; rfl
  exact key (V c main_arg0) (V c main_v4)

/-- An index of the output is in point `t`'s block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v5).slice (win0_2.rect t)).set ↔ _
  rw [View.set_slice_whole, Rect.mem_set_unit]
  exact Iff.rfl

/-- Row `r` of the output is in the block of point `r / 4000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨-, -, -, -, e4, e5⟩ := block_index t
  have ht : t.val = (i 0).val / 4000 := rfl
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- The output array after the launch: every row of the table scaled by its reciprocal degree. -/
theorem final (c : Dev nD) :
    (dat0 V c).arrAt 2 cfg0.N = scaleRows (V c main_arg0) (V c main_v4) :=
  (dat0 V c).arrAt_eq_of_cover 2 _ (fun t _ => flushed_eq V c t) cover

end Cert.KernelIdeal.Scale

end
-- ==== Proof.Region1.lean ====
/-
  The second launch (the hyperedge mix and its scaled form), read as two whole-array functions.

  The grid has 25 points; at point `t` the launch stages rows `2000 t … 2000 t + 1999` of the first aggregation, of the table `Y` and of
  the hyperedge degree column, and the two weight rows whole, and writes back the same rows of its two outputs. The body leaves
  `mixRows` of the staged blocks in the first output's buffer and that mix scaled by the staged column in the second's; a block's
  element `(p, q)` sits in its array at `(2000 t + p, q)`, the column's at `(2000 t + p, 0)`, a weight row's at `(0, q)`. So the two
  blocks written back at `t` are block `t` of `mixRows` of the whole arrays and of that `scaleRows`-scaled, and the 25 blocks cover each
  output. Stated at a parameter `V`, the buffer contents the launch is entered with.
-/
import proofs.«167250_j22393959481939_2_alg».proof.Proof.Gen.KernelIdeal.Frame
import proofs.«167250_j22393959481939_2_alg».proof.Proof.Pay
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.EdgeMix

open Cert.KernelIdeal Cert.KernelIdeal.Gen Cert.Bridge Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the tables, the column and the outputs are at block row `t`, the weight rows at block 0. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- What point `t` writes back to the first output is block `t` of the mixed table. -/
theorem flushed_eq5 (c : Dev nD) (t : Fin cfg1.N) :
    (dat1 V c).flushed 5 t
      = ((cfg1.win 5).blk t).view.read (Elt Ideal) (mixRows (V c main_v31) (V c main_v32) (V c main_v15) (V c main_arg1)) := by
  show (cfg1.win 5).cut (grid1.coords t) ((dat1 V c).after 5 t) = _
  rw [after1_5]
  unfold out1_5
  rw [View.canon_unit_zero hz]
  simp only [View.ld_unit_zero (S := S1x128) hz, View.ld_unit_zero (S := S2000x128) hz]
  rw [pay_mix_edge]
  obtain ⟨e0, e1, e2, e3, e4, e5, e6, e7, e8, e9, e10, e11, e12, e13⟩ := block_index t
  funext j
  have h0 : ((cfg1.win 0).blk t).view.emb j = ((cfg1.win 5).blk t).view.emb j := by
    funext a; apply Fin.ext
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * (j 1).val = win1_5.index t (1 : Fin 2) * 128 + 1 * (j 1).val; omega
  have h1 : ((cfg1.win 1).blk t).view.emb j = ((cfg1.win 5).blk t).view.emb j := by
    funext a; apply Fin.ext
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 128 + 1 * (j 1).val = win1_5.index t (1 : Fin 2) * 128 + 1 * (j 1).val; omega
  have h3 : ((cfg1.win 3).blk t).view.emb (ix2 (0 : Fin 1) (j 1)) = ix2 (0 : Fin 1) ((((cfg1.win 5).blk t).view.emb j) 1) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega
  have h4 : ((cfg1.win 4).blk t).view.emb (ix2 (0 : Fin 1) (j 1)) = ix2 (0 : Fin 1) ((((cfg1.win 5).blk t).view.emb j) 1) := by
    funext a; apply Fin.ext
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega
  have key : ∀ (A B : S1x128.Idx → EReal) (R Y : S50000x128.Idx → EReal),
      A (((cfg1.win 3).blk t).view.emb (ix2 (0 : Fin 1) (j 1))) * R (((cfg1.win 0).blk t).view.emb j)
        + B (((cfg1.win 4).blk t).view.emb (ix2 (0 : Fin 1) (j 1))) * Y (((cfg1.win 1).blk t).view.emb j)
      = A (ix2 (0 : Fin 1) ((((cfg1.win 5).blk t).view.emb j) 1)) * R (((cfg1.win 5).blk t).view.emb j)
        + B (ix2 (0 : Fin 1) ((((cfg1.win 5).blk t).view.emb j) 1)) * Y (((cfg1.win 5).blk t).view.emb j) := by
    intro A B R Y; rw [h0, h1, h3, h4]; rfl
  exact key (V c main_v31) (V c main_v32) (V c main_v15) (V c main_arg1)

/-- What point `t` writes back to the second output is block `t` of the mixed table scaled by the reciprocal degrees. -/
theorem flushed_eq6 (c : Dev nD) (t : Fin cfg1.N) :
    (dat1 V c).flushed 6 t
      = ((cfg1.win 6).blk t).view.read (Elt Ideal)
          (scaleRows (mixRows (V c main_v31) (V c main_v32) (V c main_v15) (V c main_arg1)) (V c main_v19)) := by
  show (cfg1.win 6).cut (grid1.coords t) ((dat1 V c).after 6 t) = _
  rw [after1_6]
  unfold out1_6
  rw [View.canon_unit_zero hz]
  simp only [View.ld_unit_zero (S := S1x128) hz, View.ld_unit_zero (S := S2000x128) hz, View.ld_unit_zero (S := S2000x1) hz]
  rw [pay_mix_edge_scaled]
  obtain ⟨e0, e1, e2, e3, e4, e5, e6, e7, e8, e9, e10, e11, e12, e13⟩ := block_index t
  funext j
  have h0 : ((cfg1.win 0).blk t).view.emb j = ((cfg1.win 6).blk t).view.emb j := by
    funext a; apply Fin.ext
    match a with
    | ⟨0, _⟩ => show win1_0.index t (0 : Fin 2) * 2000 + 1 * (j 0).val = win1_6.index t (0 : Fin 2) * 2000 + 1 * (j 0).val; omega
    | ⟨1, _⟩ => show win1_0.index t (1 : Fin 2) * 128 + 1 * (j 1).val = win1_6.index t (1 : Fin 2) * 128 + 1 * (j 1).val; omega
  have h1 : ((cfg1.win 1).blk t).view.emb j = ((cfg1.win 6).blk t).view.emb j := by
    funext a; apply Fin.ext
    match a with
    | ⟨0, _⟩ => show win1_1.index t (0 : Fin 2) * 2000 + 1 * (j 0).val = win1_6.index t (0 : Fin 2) * 2000 + 1 * (j 0).val; omega
    | ⟨1, _⟩ => show win1_1.index t (1 : Fin 2) * 128 + 1 * (j 1).val = win1_6.index t (1 : Fin 2) * 128 + 1 * (j 1).val; omega
  have h2 : ((cfg1.win 2).blk t).view.emb (ix2 (j 0) (0 : Fin 1)) = ix2 ((((cfg1.win 6).blk t).view.emb j) 0) (0 : Fin 1) := by
    funext a; apply Fin.ext
    match a with
    | ⟨0, _⟩ => show win1_2.index t (0 : Fin 2) * 2000 + 1 * (j 0).val = win1_6.index t (0 : Fin 2) * 2000 + 1 * (j 0).val; omega
    | ⟨1, _⟩ => show win1_2.index t (1 : Fin 2) * 1 + 1 * 0 = 0; omega
  have h3 : ((cfg1.win 3).blk t).view.emb (ix2 (0 : Fin 1) (j 1)) = ix2 (0 : Fin 1) ((((cfg1.win 6).blk t).view.emb j) 1) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_6.index t (1 : Fin 2) * 128 + 1 * (j 1).val; omega
  have h4 : ((cfg1.win 4).blk t).view.emb (ix2 (0 : Fin 1) (j 1)) = ix2 (0 : Fin 1) ((((cfg1.win 6).blk t).view.emb j) 1) := by
    funext a; apply Fin.ext
    match a with
    | ⟨0, _⟩ => show win1_4.index t (0 : Fin 2) * 1 + 1 * 0 = 0; omega
    | ⟨1, _⟩ => show win1_4.index t (1 : Fin 2) * 128 + 1 * (j 1).val = win1_6.index t (1 : Fin 2) * 128 + 1 * (j 1).val; omega
  have key : ∀ (A B : S1x128.Idx → EReal) (R Y : S50000x128.Idx → EReal) (D : S50000x1.Idx → EReal),
      (A (((cfg1.win 3).blk t).view.emb (ix2 (0 : Fin 1) (j 1))) * R (((cfg1.win 0).blk t).view.emb j)
        + B (((cfg1.win 4).blk t).view.emb (ix2 (0 : Fin 1) (j 1))) * Y (((cfg1.win 1).blk t).view.emb j))
        * recip (D (((cfg1.win 2).blk t).view.emb (ix2 (j 0) (0 : Fin 1))))
      = (A (ix2 (0 : Fin 1) ((((cfg1.win 6).blk t).view.emb j) 1)) * R (((cfg1.win 6).blk t).view.emb j)
        + B (ix2 (0 : Fin 1) ((((cfg1.win 6).blk t).view.emb j) 1)) * Y (((cfg1.win 6).blk t).view.emb j))
        * recip (D (ix2 ((((cfg1.win 6).blk t).view.emb j) 0) (0 : Fin 1))) := by
    intro A B R Y D; rw [h0, h1, h2, h3, h4]; rfl
  exact key (V c main_v31) (V c main_v32) (V c main_v15) (V c main_arg1) (V c main_v19)

/-- An index of the output is in point `t`'s block iff each coordinate is in the block's range on its axis. -/
theorem mem_blk5 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v33_0).slice (win1_5.rect t)).set ↔ _
  rw [View.set_slice_whole, Rect.mem_set_unit]
  exact Iff.rfl

/-- Row `r` of the output is in the block of point `r / 2000`. -/
theorem cover5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have hb := block_index t
  have ht : t.val = (i 0).val / 2000 := rfl
  refine ⟨t, flush1_5 t, ?_⟩
  rw [mem_blk5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- An index of the output is in point `t`'s block iff each coordinate is in the block's range on its axis. -/
theorem mem_blk6 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v33_1).slice (win1_6.rect t)).set ↔ _
  rw [View.set_slice_whole, Rect.mem_set_unit]
  exact Iff.rfl

/-- Row `r` of the output is in the block of point `r / 2000`. -/
theorem cover6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have hb := block_index t
  have ht : t.val = (i 0).val / 2000 := rfl
  refine ⟨t, flush1_6 t, ?_⟩
  rw [mem_blk6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The first output array after the launch: the two weight rows mixing the aggregation with `Y`. -/
theorem final5 (c : Dev nD) :
    (dat1 V c).arrAt 5 cfg1.N = mixRows (V c main_v31) (V c main_v32) (V c main_v15) (V c main_arg1) :=
  (dat1 V c).arrAt_eq_of_cover 5 _ (fun t _ => flushed_eq5 V c t) cover5

/-- The second output array after the launch: that mix, each row times its reciprocal hyperedge degree. -/
theorem final6 (c : Dev nD) :
    (dat1 V c).arrAt 6 cfg1.N
      = scaleRows (mixRows (V c main_v31) (V c main_v32) (V c main_v15) (V c main_arg1)) (V c main_v19) :=
  (dat1 V c).arrAt_eq_of_cover 6 _ (fun t _ => flushed_eq6 V c t) cover6

end Cert.KernelIdeal.EdgeMix

end
-- ==== Proof.Region2.lean ====
/-
  The third launch (the vertex mix), read as one whole-array function.

  The grid has 25 points; at point `t` the launch stages rows `4000 t … 4000 t + 3999` of the second aggregation and of the table `X`,
  and the two weight rows whole, and writes back the same rows of its output. The body leaves `mixRows` of the staged blocks; a
  block's element `(p, q)` sits in its array at `(4000 t + p, q)`, a weight row's at `(0, q)`. So the block written back at `t` is block
  `t` of `mixRows` of the whole arrays, and the 25 blocks cover the output. Stated at a parameter `V`, the buffer contents the launch
  is entered with.
-/
import proofs.«167250_j22393959481939_2_alg».proof.Proof.Gen.KernelIdeal.Frame
import proofs.«167250_j22393959481939_2_alg».proof.Proof.Pay
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.NodeMix

open Cert.KernelIdeal Cert.KernelIdeal.Gen Cert.Bridge Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the tables and the output are at block row `t`, the weight rows at block 0. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the mixed table. -/
theorem flushed_eq4 (c : Dev nD) (t : Fin cfg2.N) :
    (dat2 V c).flushed 4 t
      = ((cfg2.win 4).blk t).view.read (Elt Ideal) (mixRows (V c main_v31) (V c main_v32) (V c main_v43) (V c main_arg0)) := by
  show (cfg2.win 4).cut (grid2.coords t) ((dat2 V c).after 4 t) = _
  rw [after2_4]
  unfold out2_4
  rw [View.canon_unit_zero hz]
  simp only [View.ld_unit_zero (S := S1x128) hz, View.ld_unit_zero (S := S4000x128) hz]
  rw [pay_mix_node]
  obtain ⟨e0, e1, e2, e3, e4, e5, e6, e7, e8, e9⟩ := block_index t
  funext j
  have h0 : ((cfg2.win 0).blk t).view.emb j = ((cfg2.win 4).blk t).view.emb j := by
    funext a; apply Fin.ext
    match a with
    | ⟨0, _⟩ => show win2_0.index t (0 : Fin 2) * 4000 + 1 * (j 0).val = win2_4.index t (0 : Fin 2) * 4000 + 1 * (j 0).val; omega
    | ⟨1, _⟩ => show win2_0.index t (1 : Fin 2) * 128 + 1 * (j 1).val = win2_4.index t (1 : Fin 2) * 128 + 1 * (j 1).val; omega
  have h1 : ((cfg2.win 1).blk t).view.emb j = ((cfg2.win 4).blk t).view.emb j := by
    funext a; apply Fin.ext
    match a with
    | ⟨0, _⟩ => show win2_1.index t (0 : Fin 2) * 4000 + 1 * (j 0).val = win2_4.index t (0 : Fin 2) * 4000 + 1 * (j 0).val; omega
    | ⟨1, _⟩ => show win2_1.index t (1 : Fin 2) * 128 + 1 * (j 1).val = win2_4.index t (1 : Fin 2) * 128 + 1 * (j 1).val; omega
  have h2 : ((cfg2.win 2).blk t).view.emb (ix2 (0 : Fin 1) (j 1)) = ix2 (0 : Fin 1) ((((cfg2.win 4).blk t).view.emb j) 1) := by
    funext a; apply Fin.ext
    match a with
    | ⟨0, _⟩ => show win2_2.index t (0 : Fin 2) * 1 + 1 * 0 = 0; omega
    | ⟨1, _⟩ => show win2_2.index t (1 : Fin 2) * 128 + 1 * (j 1).val = win2_4.index t (1 : Fin 2) * 128 + 1 * (j 1).val; omega
  have h3 : ((cfg2.win 3).blk t).view.emb (ix2 (0 : Fin 1) (j 1)) = ix2 (0 : Fin 1) ((((cfg2.win 4).blk t).view.emb j) 1) := by
    funext a; apply Fin.ext
    match a with
    | ⟨0, _⟩ => show win2_3.index t (0 : Fin 2) * 1 + 1 * 0 = 0; omega
    | ⟨1, _⟩ => show win2_3.index t (1 : Fin 2) * 128 + 1 * (j 1).val = win2_4.index t (1 : Fin 2) * 128 + 1 * (j 1).val; omega
  have key : ∀ (A B : S1x128.Idx → EReal) (R X : S100000x128.Idx → EReal),
      A (((cfg2.win 2).blk t).view.emb (ix2 (0 : Fin 1) (j 1))) * R (((cfg2.win 0).blk t).view.emb j)
        + B (((cfg2.win 3).blk t).view.emb (ix2 (0 : Fin 1) (j 1))) * X (((cfg2.win 1).blk t).view.emb j)
      = A (ix2 (0 : Fin 1) ((((cfg2.win 4).blk t).view.emb j) 1)) * R (((cfg2.win 4).blk t).view.emb j)
        + B (ix2 (0 : Fin 1) ((((cfg2.win 4).blk t).view.emb j) 1)) * X (((cfg2.win 4).blk t).view.emb j) := by
    intro A B R X; rw [h0, h1, h2, h3]; rfl
  exact key (V c main_v31) (V c main_v32) (V c main_v43) (V c main_arg0)

/-- An index of the output is in point `t`'s block iff each coordinate is in the block's range on its axis. -/
theorem mem_blk4 (t : Fin cfg2.N) (i : S100000x128.Idx) :
    i ∈ ((cfg2.win 4).blk t).view.set ↔ ∀ a : Fin 2, win2_4.index t a * S4000x128.size a ≤ (i a).val ∧ (i a).val < win2_4.index t a * S4000x128.size a + S4000x128.size a := by
  show i ∈ ((View.whole main_v44).slice (win2_4.rect t)).set ↔ _
  rw [View.set_slice_whole, Rect.mem_set_unit]
  exact Iff.rfl

/-- Row `r` of the output is in the block of point `r / 4000`. -/
theorem cover4 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 25 := N_2
  let t : Fin cfg2.N := ⟨(i 0).val / 4000, by rw [hN]; omega⟩
  have hb := block_index t
  have ht : t.val = (i 0).val / 4000 := rfl
  refine ⟨t, flush2_4 t, ?_⟩
  rw [mem_blk4]
  intro a
  match a with
  | ⟨0, _⟩ => show win2_4.index t (0 : Fin 2) * 4000 ≤ (i 0).val ∧ (i 0).val < win2_4.index t (0 : Fin 2) * 4000 + 4000; omega
  | ⟨1, _⟩ => show win2_4.index t (1 : Fin 2) * 128 ≤ (i 1).val ∧ (i 1).val < win2_4.index t (1 : Fin 2) * 128 + 128; omega

/-- The output array after the launch: the two weight rows mixing the aggregation with `X`. -/
theorem final4 (c : Dev nD) :
    (dat2 V c).arrAt 4 cfg2.N = mixRows (V c main_v31) (V c main_v32) (V c main_v43) (V c main_arg0) :=
  (dat2 V c).arrAt_eq_of_cover 4 _ (fun t _ => flushed_eq4 V c t) cover4

end Cert.KernelIdeal.NodeMix

end
-- ==== Proof.RefSpec.lean ====
/-
  The reference's four arithmetic stages, each as one of the shared functions of the stage before it.

  The reference spreads a weight row over a table by three layout operations in a row (recast `[1,128]` as `[128]`, put the unit
  axis back, repeat the row), and spreads a reciprocal degree over a row's lanes by two (a vector `[n]` made a column, the
  column repeated): read at the element `(p, q)` the first chain ends at the row's lane `q`, the second at the vector's entry
  `p`, and the `where` of the reference is `recip` of the degree. So
  * the scaled vertex table is `scaleRows` of the table and the degree vector written as a column,
  * the hyperedge table is `mixRows` of the two weight rows, the first aggregation and the table `Y`,
  * its scaled form is `scaleRows` of it and the hyperedge degree column,
  * the result is `mixRows` of the weight rows, the second aggregation and the table `X`.
  The aggregations themselves (gather rows, sum into segments) and the softmax that makes the weight rows are never opened.
-/
import proofs.«167250_j22393959481939_2_alg».proof.Proof.RefRead
import proofs.«167250_j22393959481939_2_alg».proof.Proof.Spec

noncomputable section

namespace Cert.ReferenceIdeal.Stages

open Idealize.ShloMosaic Idealize.ShloMosaic.ValueIdx Cert.ReferenceIdeal Cert.ReferenceIdeal.ReadP Cert.Bridge

abbrev FTab (s : Shape) := (⟨s, .f32⟩ : BufTy).Contents (Elt Ideal)
abbrev ITab (s : Shape) := (⟨s, .i32⟩ : BufTy).Contents (Elt Ideal)

/-! ## A weight row repeated over a table, read at an element -/

theorem lane_eq (q : Fin 128) (k : S1x128.Idx) (h0 : (k 0).val = 0) (h1 : (k 1).val = q.val % 128) :
    k = ix2 (0 : Fin 1) q :=
  funext fun a => match a with
    | ⟨0, _⟩ => Fin.ext h0
    | ⟨1, _⟩ => Fin.ext (show (k 1).val = q.val from h1.trans (Nat.mod_eq_of_lt q.isLt))

theorem weight0_edge (x2 : FTab S2x128) (p : Fin 50000) (q : Fin 128) :
    val_main_v36 x2 (ix2 p q) = val_main_v33 x2 (ix2 (0 : Fin 1) q) := by
  rw [val_main_v36_apply, val_main_v35_apply, val_main_v34_apply]
  exact congrArg _ (lane_eq q _ rfl rfl)

theorem weight1_edge (x2 : FTab S2x128) (p : Fin 50000) (q : Fin 128) :
    val_main_v41 x2 (ix2 p q) = val_main_v38 x2 (ix2 (0 : Fin 1) q) := by
  rw [val_main_v41_apply, val_main_v40_apply, val_main_v39_apply]
  exact congrArg _ (lane_eq q _ rfl rfl)

theorem weight0_node (x2 : FTab S2x128) (p : Fin 100000) (q : Fin 128) :
    val_main_v68 x2 (ix2 p q) = val_main_v65 x2 (ix2 (0 : Fin 1) q) := by
  rw [val_main_v68_apply, val_main_v67_apply, val_main_v66_apply]
  exact congrArg _ (lane_eq q _ rfl rfl)

theorem weight1_node (x2 : FTab S2x128) (p : Fin 100000) (q : Fin 128) :
    val_main_v73 x2 (ix2 p q) = val_main_v70 x2 (ix2 (0 : Fin 1) q) := by
  rw [val_main_v73_apply, val_main_v72_apply, val_main_v71_apply]
  exact congrArg _ (lane_eq q _ rfl rfl)

/-! ## The reference's `where(d > 0, 1 / d, 0)` is `recip d` -/

theorem recip_node (x3 : ITab S1600000) (p : Fin 100000) :
    val_main_v8 x3 (ix1 p) = recip (val_main_v3 x3 (ix1 p)) := by
  rw [val_main_v8_apply, val_main_v5_apply, val_main_v7_apply, val_main_v4_apply, val_main_v6_apply, val_main_call0_v1_apply]
  rfl

theorem recip_edge (x4 : ITab S1600000) (p : Fin 50000) :
    val_main_v51 x4 (ix1 p) = recip (val_main_v46 x4 (ix1 p)) := by
  rw [val_main_v51_apply, val_main_v48_apply, val_main_v50_apply, val_main_v47_apply, val_main_v49_apply, val_main_call1_v1_apply]
  rfl

/-! ## The four stages -/

/-- The scaled vertex table: each row of `X` times the reciprocal of its vertex degree. -/
theorem scale_node (x0 : FTab S100000x128) (x3 : ITab S1600000) (h : S100000.ShapeCasts S100000x1) :
    val_main_v11 x0 x3 = scaleRows x0 (shapeCast S100000x1 (val_main_v3 x3) h) := by
  funext i
  obtain ⟨p, q, rfl⟩ : ∃ (p : Fin 100000) (q : Fin 128), i = ix2 p q := ⟨i 0, i 1, eq_ix2 i⟩
  show x0 (ix2 p q) * val_main_v10 x3 (ix2 p q) = x0 (ix2 p q) * recip (shapeCast S100000x1 (val_main_v3 x3) h (ix2 p (0 : Fin 1)))
  rw [val_main_v10_apply, val_main_v9_apply, shapeCast_a_a1_apply]
  have hk : idx_main_v9 (idx_main_v10 (ix2 p q)) = ix1 p := funext fun a => match a with | ⟨0, _⟩ => rfl
  rw [hk, recip_node]

/-- The hyperedge table: the two weight rows mixing the first aggregation with `Y`. -/
theorem mix_edge (x0 : FTab S100000x128) (x1 : FTab S50000x128) (x2 : FTab S2x128) (x3 x4 : ITab S1600000) :
    val_main_v43 x0 x1 x2 x3 x4 = mixRows (val_main_v33 x2) (val_main_v38 x2) (val_main_v21 x0 x3 x4) x1 := by
  funext i
  obtain ⟨p, q, rfl⟩ : ∃ (p : Fin 50000) (q : Fin 128), i = ix2 p q := ⟨i 0, i 1, eq_ix2 i⟩
  show val_main_v36 x2 (ix2 p q) * val_main_v21 x0 x3 x4 (ix2 p q) + val_main_v41 x2 (ix2 p q) * x1 (ix2 p q)
    = val_main_v33 x2 (ix2 (0 : Fin 1) q) * val_main_v21 x0 x3 x4 (ix2 p q) + val_main_v38 x2 (ix2 (0 : Fin 1) q) * x1 (ix2 p q)
  rw [weight0_edge, weight1_edge]

/-- The scaled hyperedge table: each row of the hyperedge table times the reciprocal of its hyperedge degree. -/
theorem scale_edge (x0 : FTab S100000x128) (x1 : FTab S50000x128) (x2 : FTab S2x128) (x3 x4 : ITab S1600000)
    (h : S50000.ShapeCasts S50000x1) :
    val_main_v54 x0 x1 x2 x3 x4 = scaleRows (val_main_v43 x0 x1 x2 x3 x4) (shapeCast S50000x1 (val_main_v46 x4) h) := by
  funext i
  obtain ⟨p, q, rfl⟩ : ∃ (p : Fin 50000) (q : Fin 128), i = ix2 p q := ⟨i 0, i 1, eq_ix2 i⟩
  show val_main_v43 x0 x1 x2 x3 x4 (ix2 p q) * val_main_v53 x4 (ix2 p q)
    = val_main_v43 x0 x1 x2 x3 x4 (ix2 p q) * recip (shapeCast S50000x1 (val_main_v46 x4) h (ix2 p (0 : Fin 1)))
  rw [val_main_v53_apply, val_main_v52_apply, shapeCast_a_a1_apply]
  have hk : idx_main_v52 (idx_main_v53 (ix2 p q)) = ix1 p := funext fun a => match a with | ⟨0, _⟩ => rfl
  rw [hk, recip_edge]

/-- The result: the two weight rows mixing the second aggregation with `X`. -/
theorem mix_node (x0 : FTab S100000x128) (x1 : FTab S50000x128) (x2 : FTab S2x128) (x3 x4 : ITab S1600000) :
    val_main_v75 x0 x1 x2 x3 x4 = mixRows (val_main_v65 x2) (val_main_v70 x2) (val_main_v64 x0 x1 x2 x3 x4) x0 := by
  funext i
  obtain ⟨p, q, rfl⟩ : ∃ (p : Fin 100000) (q : Fin 128), i = ix2 p q := ⟨i 0, i 1, eq_ix2 i⟩
  show val_main_v68 x2 (ix2 p q) * val_main_v64 x0 x1 x2 x3 x4 (ix2 p q) + val_main_v73 x2 (ix2 p q) * x0 (ix2 p q)
    = val_main_v65 x2 (ix2 (0 : Fin 1) q) * val_main_v64 x0 x1 x2 x3 x4 (ix2 p q) + val_main_v70 x2 (ix2 (0 : Fin 1) q) * x0 (ix2 p q)
  rw [weight0_node, weight1_node]

end Cert.ReferenceIdeal.Stages

end
-- ==== Proof.Fold.lean ====
/-
  What the idealized kernel program's two result arrays hold, as the reference's own stage functions of the arguments.

  The run is a chain of buffer valuations `W0 … W6` (launch memory; after host stretch 1; after launch 1; after host stretch 2;
  after launch 2; after host stretch 3; after launch 3). Going down the chain, each buffer the later steps read is identified:
  * a host stretch leaves a buffer it does not write as it was, and computes the ones it writes as the composed host
    operations of what it reads — and these compositions (the degree counts, the row gathers and segment sums, the softmax
    weight rows) are literally the reference's, so they are carried as the reference's stage functions and never opened;
  * a launch leaves its input arrays and every other buffer as they were, and its outputs at the whole-array function of its
    inputs found in the three launch modules, which the reference's arithmetic stages are as well.
  At the end the first result is the reference's last stage of the arguments, the second its hyperedge-table stage.
-/
import proofs.«167250_j22393959481939_2_alg».proof.Proof.Gen.KernelIdeal.Frame
import proofs.«167250_j22393959481939_2_alg».proof.Proof.Region0
import proofs.«167250_j22393959481939_2_alg».proof.Proof.Region1
import proofs.«167250_j22393959481939_2_alg».proof.Proof.Region2
import proofs.«167250_j22393959481939_2_alg».proof.Proof.RefSpec
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.Bridge Idealize.ShloMosaic.StableHlo
open Cert.ReferenceIdeal.ReadP Cert.ReferenceIdeal.Stages

variable (m : (ℓ : Loc nD τ sig) → Buf (Elt Ideal) ℓ) (ρ : Dev nD → PrngReg)

/-- A host stretch leaves a buffer none of its operations writes as it was. -/
macro "host_keeps" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## After the first host stretch -/

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0); host_keeps
theorem W1_arg1 (c : Dev nD) : W1 m ρ c (Proc.devRef .tc main_arg1) = m ((c : Thread nD τ).loc main_arg1) := by
  show StableHlo.after hostOps0 (W0 m ρ c) (Proc.devRef .tc main_arg1) = W0 m ρ c (Proc.devRef .tc main_arg1); host_keeps
theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2); host_keeps
theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3); host_keeps
theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4); host_keeps

/-- The vertex degree column: the segment count of the vertex indices, recast as a column. -/
theorem W1_v4 (c : Dev nD) : W1 m ρ c (Proc.devRef .tc main_v4)
    = shapeCast S100000x1 (val_main_v3 (F := Ideal) (m ((c : Thread nD τ).loc main_arg3))) Facts₀.shapeCasts_S100000_S100000x1 := by
  show StableHlo.after hostOps0 (W0 m ρ c) (Proc.devRef .tc main_v4) = _
  after_results
  rfl

/-- The all-ones update vector both degree counts add. -/
theorem W1_v0 (c : Dev nD) : W1 m ρ c (Proc.devRef .tc main_v0) = val_main_v0 (F := Ideal) := by
  show StableHlo.after hostOps0 (W0 m ρ c) (Proc.devRef .tc main_v0) = _
  after_results
  rfl

/-! ## After the first launch -/

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_v0 (c : Dev nD) : W2 m ρ c (Proc.devRef .tc main_v0) = val_main_v0 (F := Ideal) :=
  (W2_of_ne m ρ c main_v0 (by decide)).trans (W1_v0 m ρ c)

/-- The first launch's output is the reference's scaled vertex table. -/
theorem W2_v5 (c : Dev nD) : W2 m ρ c (Proc.devRef .tc main_v5)
    = val_main_v11 (F := Ideal) (m ((c : Thread nD τ).loc main_arg0)) (m ((c : Thread nD τ).loc main_arg3)) := by
  refine (W2_arr m ρ c 2).trans ((Scale.final (V1 m ρ) c).trans ?_)
  show scaleRows (n := 100000) (W1 m ρ c (Proc.devRef .tc main_arg0)) (W1 m ρ c (Proc.devRef .tc main_v4)) = _
  rw [W1_arg0, W1_v4]
  exact (scale_node _ _ _).symm

/-! ## After the second host stretch -/

theorem W3_arg0 (c : Dev nD) : W3 m ρ c (Proc.devRef .tc main_arg0) = m ((c : Thread nD τ).loc main_arg0) := by
  refine Eq.trans ?_ (W2_arg0 m ρ c)
  show StableHlo.after hostOps1 (W2 m ρ c) (Proc.devRef .tc main_arg0) = W2 m ρ c (Proc.devRef .tc main_arg0); host_keeps
theorem W3_arg1 (c : Dev nD) : W3 m ρ c (Proc.devRef .tc main_arg1) = m ((c : Thread nD τ).loc main_arg1) := by
  refine Eq.trans ?_ (W2_arg1 m ρ c)
  show StableHlo.after hostOps1 (W2 m ρ c) (Proc.devRef .tc main_arg1) = W2 m ρ c (Proc.devRef .tc main_arg1); host_keeps
theorem W3_arg3 (c : Dev nD) : W3 m ρ c (Proc.devRef .tc main_arg3) = m ((c : Thread nD τ).loc main_arg3) := by
  refine Eq.trans ?_ (W2_arg3 m ρ c)
  show StableHlo.after hostOps1 (W2 m ρ c) (Proc.devRef .tc main_arg3) = W2 m ρ c (Proc.devRef .tc main_arg3); host_keeps
theorem W3_arg4 (c : Dev nD) : W3 m ρ c (Proc.devRef .tc main_arg4) = m ((c : Thread nD τ).loc main_arg4) := by
  refine Eq.trans ?_ (W2_arg4 m ρ c)
  show StableHlo.after hostOps1 (W2 m ρ c) (Proc.devRef .tc main_arg4) = W2 m ρ c (Proc.devRef .tc main_arg4); host_keeps

/-- The first aggregation: the scaled vertex rows gathered along the vertex indices and summed into hyperedges. -/
theorem W3_v15 (c : Dev nD) : W3 m ρ c (Proc.devRef .tc main_v15)
    = val_main_v21 (F := Ideal) (m ((c : Thread nD τ).loc main_arg0)) (m ((c : Thread nD τ).loc main_arg3)) (m ((c : Thread nD τ).loc main_arg4)) := by
  show StableHlo.after hostOps1 (W2 m ρ c) (Proc.devRef .tc main_v15) = _
  after_results
  rw [W2_v5, W2_arg3, W2_arg4]
  rfl

/-- The hyperedge degree column. -/
theorem W3_v19 (c : Dev nD) : W3 m ρ c (Proc.devRef .tc main_v19)
    = shapeCast S50000x1 (val_main_v46 (F := Ideal) (m ((c : Thread nD τ).loc main_arg4))) Facts₀.shapeCasts_S50000_S50000x1 := by
  show StableHlo.after hostOps1 (W2 m ρ c) (Proc.devRef .tc main_v19) = _
  after_results
  rw [W2_arg4, W2_v0]
  rfl

set_option maxHeartbeats 4000000 in
/-- The two softmax weight rows. -/
theorem W3_v31 (c : Dev nD) : W3 m ρ c (Proc.devRef .tc main_v31) = val_main_v33 (F := Ideal) (m ((c : Thread nD τ).loc main_arg2)) := by
  show StableHlo.after hostOps1 (W2 m ρ c) (Proc.devRef .tc main_v31) = _
  after_results_simp
  rw [W2_arg2]
  rfl
set_option maxHeartbeats 4000000 in
theorem W3_v32 (c : Dev nD) : W3 m ρ c (Proc.devRef .tc main_v32) = val_main_v38 (F := Ideal) (m ((c : Thread nD τ).loc main_arg2)) := by
  show StableHlo.after hostOps1 (W2 m ρ c) (Proc.devRef .tc main_v32) = _
  after_results_simp
  rw [W2_arg2]
  rfl

/-! ## After the second launch -/

theorem W4_arg0 (c : Dev nD) : W4 m ρ c (Proc.devRef .tc main_arg0) = m ((c : Thread nD τ).loc main_arg0) :=
  (W4_of_ne m ρ c main_arg0 (by decide)).trans (W3_arg0 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_v31 (c : Dev nD) : W4 m ρ c (Proc.devRef .tc main_v31) = val_main_v33 (F := Ideal) (m ((c : Thread nD τ).loc main_arg2)) :=
  ((W4_arr m ρ c 3).trans (((dat1 (V3 m ρ) c).arrAt_in 3 rfl _).trans (A_eq1 (V3 m ρ) c 3))).trans (W3_v31 m ρ c)
theorem W4_v32 (c : Dev nD) : W4 m ρ c (Proc.devRef .tc main_v32) = val_main_v38 (F := Ideal) (m ((c : Thread nD τ).loc main_arg2)) :=
  ((W4_arr m ρ c 4).trans (((dat1 (V3 m ρ) c).arrAt_in 4 rfl _).trans (A_eq1 (V3 m ρ) c 4))).trans (W3_v32 m ρ c)

/-- The second launch's first output is the reference's hyperedge table. -/
theorem W4_v33_0 (c : Dev nD) : W4 m ρ c (Proc.devRef .tc main_v33_0) = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 5).trans ((EdgeMix.final5 (V3 m ρ) c).trans ?_)
  show mixRows (n := 50000) (W3 m ρ c (Proc.devRef .tc main_v31)) (W3 m ρ c (Proc.devRef .tc main_v32))
    (W3 m ρ c (Proc.devRef .tc main_v15)) (W3 m ρ c (Proc.devRef .tc main_arg1)) = _
  rw [W3_v31, W3_v32, W3_v15, W3_arg1]
  exact (mix_edge _ _ _ _ _).symm

/-- The second launch's second output is the reference's scaled hyperedge table. -/
theorem W4_v33_1 (c : Dev nD) : W4 m ρ c (Proc.devRef .tc main_v33_1) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 6).trans ((EdgeMix.final6 (V3 m ρ) c).trans ?_)
  show scaleRows (n := 50000) (mixRows (n := 50000) (W3 m ρ c (Proc.devRef .tc main_v31)) (W3 m ρ c (Proc.devRef .tc main_v32))
    (W3 m ρ c (Proc.devRef .tc main_v15)) (W3 m ρ c (Proc.devRef .tc main_arg1))) (W3 m ρ c (Proc.devRef .tc main_v19)) = _
  rw [W3_v31, W3_v32, W3_v15, W3_arg1, W3_v19, ← mix_edge]
  exact (scale_edge _ _ _ _ _ _).symm

/-! ## After the third host stretch -/

theorem W5_arg0 (c : Dev nD) : W5 m ρ c (Proc.devRef .tc main_arg0) = m ((c : Thread nD τ).loc main_arg0) := by
  refine Eq.trans ?_ (W4_arg0 m ρ c)
  show StableHlo.after hostOps2 (W4 m ρ c) (Proc.devRef .tc main_arg0) = W4 m ρ c (Proc.devRef .tc main_arg0); host_keeps
theorem W5_v31 (c : Dev nD) : W5 m ρ c (Proc.devRef .tc main_v31) = val_main_v33 (F := Ideal) (m ((c : Thread nD τ).loc main_arg2)) := by
  refine Eq.trans ?_ (W4_v31 m ρ c)
  show StableHlo.after hostOps2 (W4 m ρ c) (Proc.devRef .tc main_v31) = W4 m ρ c (Proc.devRef .tc main_v31); host_keeps
theorem W5_v32 (c : Dev nD) : W5 m ρ c (Proc.devRef .tc main_v32) = val_main_v38 (F := Ideal) (m ((c : Thread nD τ).loc main_arg2)) := by
  refine Eq.trans ?_ (W4_v32 m ρ c)
  show StableHlo.after hostOps2 (W4 m ρ c) (Proc.devRef .tc main_v32) = W4 m ρ c (Proc.devRef .tc main_v32); host_keeps
theorem W5_v33_0 (c : Dev nD) : W5 m ρ c (Proc.devRef .tc main_v33_0) = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine Eq.trans ?_ (W4_v33_0 m ρ c)
  show StableHlo.after hostOps2 (W4 m ρ c) (Proc.devRef .tc main_v33_0) = W4 m ρ c (Proc.devRef .tc main_v33_0); host_keeps

set_option maxHeartbeats 4000000 in
/-- The second aggregation: the scaled hyperedge rows gathered along the hyperedge indices and summed into vertices. -/
theorem W5_v43 (c : Dev nD) : W5 m ρ c (Proc.devRef .tc main_v43) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W4 m ρ c) (Proc.devRef .tc main_v43) = _
  after_results
  rw [W4_v33_1, W4_arg3, W4_arg4]
  rfl

/-! ## After the third launch: the two results -/

/-- The first result is the reference's last stage of the arguments. -/
theorem W6_v44 (c : Dev nD) : W6 m ρ c (Proc.devRef .tc main_v44) = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 4).trans ((NodeMix.final4 (V5 m ρ) c).trans ?_)
  show mixRows (n := 100000) (W5 m ρ c (Proc.devRef .tc main_v31)) (W5 m ρ c (Proc.devRef .tc main_v32))
    (W5 m ρ c (Proc.devRef .tc main_v43)) (W5 m ρ c (Proc.devRef .tc main_arg0)) = _
  rw [W5_v31, W5_v32, W5_v43, W5_arg0]
  exact (mix_node _ _ _ _ _).symm

/-- The second result is the reference's hyperedge table. -/
theorem W6_v33_0 (c : Dev nD) : W6 m ρ c (Proc.devRef .tc main_v33_0) = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_of_ne m ρ c main_v33_0 (by decide)).trans (W5_v33_0 m ρ c)

end Cert.KernelIdeal.Chain

end
-- ==== Proof.lean ====
/-
  The certificate of the three-launch kernel against its reference: two rounds of "scale or mix rows, gather them along an incidence
  list, sum them into segments" on the extended reals.

  The kernel program computes the row scalings and the two-term mixes in three pipelined launches and leaves the degree counts, the
  gathers, the segment sums and the softmax of the weights to host operations; the reference does everything with host operations.
  Both perform the same operations in the same order, so no algebraic law and no finiteness of the inputs is needed: the proof is that
  each launch's output array is the same whole-array function of its inputs as the reference's corresponding stage (Spec, Pay, the three
  launch modules, RefSpec), that the host stretches between them are the reference's own compositions (Fold), and that the kernel
  program's run ends with its results at the end of that chain (KernRun).
  * The three frames: the two kernel programs' are generated whole; the reference's is its run with the results dropped.
  * `preserves`: the idealization rewrote nothing, the claim is `True`.
  * `algebraic`: both runs end with the first result at the reference's last stage of the arguments and the second at its
    hyperedge-table stage; the arguments agree.
-/
import proofs.«167250_j22393959481939_2_alg».proof.Defs
import proofs.«167250_j22393959481939_2_alg».proof.Proof.Gen.Kernel
import proofs.«167250_j22393959481939_2_alg».proof.Proof.Gen.Kernel.Skeleton
import proofs.«167250_j22393959481939_2_alg».proof.Proof.Gen.Kernel.Launch
import proofs.«167250_j22393959481939_2_alg».proof.Proof.Gen.Kernel.Points
import proofs.«167250_j22393959481939_2_alg».proof.Proof.Gen.Kernel.Frame
import proofs.«167250_j22393959481939_2_alg».proof.Proof.Gen.KernelIdeal
import proofs.«167250_j22393959481939_2_alg».proof.Proof.Gen.KernelIdeal.Skeleton
import proofs.«167250_j22393959481939_2_alg».proof.Proof.Gen.KernelIdeal.Launch
import proofs.«167250_j22393959481939_2_alg».proof.Proof.Gen.KernelIdeal.Points
import proofs.«167250_j22393959481939_2_alg».proof.Proof.Gen.KernelIdeal.Frame
import proofs.«167250_j22393959481939_2_alg».proof.Proof.Gen.ReferenceIdeal
import proofs.«167250_j22393959481939_2_alg».proof.Proof.Gen.Pre_finite_inputs
import proofs.«167250_j22393959481939_2_alg».proof.Proof.RefRun
import proofs.«167250_j22393959481939_2_alg».proof.Proof.RefRead
import proofs.«167250_j22393959481939_2_alg».proof.Proof.KernRun
import proofs.«167250_j22393959481939_2_alg».proof.Proof.Fold
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- Both runs end with the results at the reference's stage functions of the (agreeing) arguments. -/
theorem algebraic : Cert.algebraic_KernelIdeal_ReferenceIdeal := by
  intro m ρ m' ρ' _ hagree
  refine ⟨fun c => Cert.ReferenceIdeal.ReadP.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.ReadP.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Chain.W6_v44 m ρ c), (h c).2.1.trans (Cert.KernelIdeal.Chain.W6_v33_0 m ρ c), (h c).2.2⟩)
      (Cert.KernelIdeal.Named.run m ρ)
  · refine (θ_run Cert.ReferenceIdeal.defs _ _).mono (fun r h c => ⟨?_, ?_, (h c).2.2⟩)
      (Cert.ReferenceIdeal.ValueP.run (F := Ideal) m' ρ')
    · rw [(h c).1, Cert.ReferenceIdeal.ReadP.val_main_v75_eq, (hagree c).1, (hagree c).2.1, (hagree c).2.2.1, (hagree c).2.2.2.1,
        (hagree c).2.2.2.2]
    · rw [(h c).2.1, Cert.ReferenceIdeal.ReadP.val_main_v43_eq, (hagree c).1, (hagree c).2.1, (hagree c).2.2.1, (hagree c).2.2.2.1,
        (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
